-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v2) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S128x512x512 : Shape := ⟨3, ![128, 512, 512]⟩
abbrev S_ : Shape := ⟨0, ![]⟩

class Facts : Prop where
  bcast_S_S128x512x512 : S_.BroadcastsInDim S128x512x512 (![] : Fin 0 → Fin S128x512x512.rank)
  reducesTo_S128x512x512_S_d0_1_2 : S128x512x512.ReducesTo [0, 1, 2] S_
  h_S_ : 0 < S_.numel

variable [Facts]

def fn {F : FTy → Type} [FloatOps F] (main_arg0 : FVec F S128x512x512 .f32) : IVec S_ 1 :=
  let main_v0 : FVec F S128x512x512 .f32 := Host.absf main_arg0
  let main_cst : FVec F S_ .f32 := constant S_ .f32 0x7F800000#32
  let main_v1 : FVec F S128x512x512 .f32 := broadcastInDim S128x512x512 ![] bcast_S_S128x512x512 main_cst
  let main_v2 : IVec S128x512x512 1 := cmpf .olt main_v0 main_v1
  let main_c : IVec S_ 1 := constantI S_ 1 1#1
  let main_v3 : IVec S_ 1 := (fun x v => Host.reduce IntOp.andi x v reducesTo_S128x512x512_S_d0_1_2 h_S_) main_v2 main_c
  main_v3
-- ==== Kernel.lean ====
abbrev S128x512x512 : Shape := ⟨3, ![128, 512, 512]⟩
abbrev S128x64 : Shape := ⟨2, ![128, 64]⟩
abbrev S16x512x512 : Shape := ⟨3, ![16, 512, 512]⟩
abbrev S16x64 : Shape := ⟨2, ![16, 64]⟩
abbrev S16x8x512 : Shape := ⟨3, ![16, 8, 512]⟩
abbrev S16x64x512 : Shape := ⟨3, ![16, 64, 512]⟩
abbrev S16x512 : Shape := ⟨2, ![16, 512]⟩
abbrev S16x1x512 : Shape := ⟨3, ![16, 1, 512]⟩
abbrev S16x512x8 : Shape := ⟨3, ![16, 512, 8]⟩
abbrev S16x8x64x8 : Shape := ⟨4, ![16, 8, 64, 8]⟩
abbrev S16x8x8 : Shape := ⟨3, ![16, 8, 8]⟩

abbrev nBuf : Space → Nat
  | .hbm => 2
  | .vmem => 5
  | .smem => 0
  | _ => 0

abbrev bufTy : (tb : Table) → Fin (tcTables nBuf tb) → BufTy
  | .hbm, ⟨0, _⟩ => ⟨S128x512x512, .f32⟩
  | .hbm, ⟨1, _⟩ => ⟨S128x64, .f32⟩
  | .local _ .vmem, ⟨0, _⟩ => ⟨S16x512x512, .f32⟩
  | .local _ .vmem, ⟨1, _⟩ => ⟨S16x512x512, .f32⟩
  | .local _ .vmem, ⟨2, _⟩ => ⟨S16x64, .f32⟩
  | .local _ .vmem, ⟨3, _⟩ => ⟨S16x64, .f32⟩
  | .local _ .vmem, ⟨4, _⟩ => ⟨S16x8x512, .f32⟩
  | _, _ => ⟨S128x512x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_scratch0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S16x512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

class Facts₀ : Prop where
  inb_S16x512x512_S16x64x512_0_0_0 : ∀ a, (![0, 0, 0] : Fin 3 → Nat) a + S16x64x512.size a ≤ S16x512x512.size a
  h_S16x64x512 : 0 < S16x64x512.numel
  reduces_S16x64x512_S16x512 : S16x64x512.Reduces [1] S16x512
  inb_S16x8x512_S16x1x512_0_0_0 : ∀ a, (![0, 0, 0] : Fin 3 → Nat) a + S16x1x512.size a ≤ S16x8x512.size a
  h_S16x1x512 : 0 < S16x1x512.numel
  shapeCasts_S16x1x512_S16x512 : S16x1x512.ShapeCasts S16x512
  shapeCasts_S16x512_S16x1x512 : S16x512.ShapeCasts S16x1x512
  inb_S16x512x512_S16x64x512_0_64_0 : ∀ a, (![0, 64, 0] : Fin 3 → Nat) a + S16x64x512.size a ≤ S16x512x512.size a
  inb_S16x8x512_S16x1x512_0_1_0 : ∀ a, (![0, 1, 0] : Fin 3 → Nat) a + S16x1x512.size a ≤ S16x8x512.size a
  inb_S16x512x512_S16x64x512_0_128_0 : ∀ a, (![0, 128, 0] : Fin 3 → Nat) a + S16x64x512.size a ≤ S16x512x512.size a
  inb_S16x8x512_S16x1x512_0_2_0 : ∀ a, (![0, 2, 0] : Fin 3 → Nat) a + S16x1x512.size a ≤ S16x8x512.size a
  inb_S16x512x512_S16x64x512_0_192_0 : ∀ a, (![0, 192, 0] : Fin 3 → Nat) a + S16x64x512.size a ≤ S16x512x512.size a
  inb_S16x8x512_S16x1x512_0_3_0 : ∀ a, (![0, 3, 0] : Fin 3 → Nat) a + S16x1x512.size a ≤ S16x8x512.size a
  inb_S16x512x512_S16x64x512_0_256_0 : ∀ a, (![0, 256, 0] : Fin 3 → Nat) a + S16x64x512.size a ≤ S16x512x512.size a
  inb_S16x8x512_S16x1x512_0_4_0 : ∀ a, (![0, 4, 0] : Fin 3 → Nat) a + S16x1x512.size a ≤ S16x8x512.size a
  inb_S16x512x512_S16x64x512_0_320_0 : ∀ a, (![0, 320, 0] : Fin 3 → Nat) a + S16x64x512.size a ≤ S16x512x512.size a
  inb_S16x8x512_S16x1x512_0_5_0 : ∀ a, (![0, 5, 0] : Fin 3 → Nat) a + S16x1x512.size a ≤ S16x8x512.size a
  inb_S16x512x512_S16x64x512_0_384_0 : ∀ a, (![0, 384, 0] : Fin 3 → Nat) a + S16x64x512.size a ≤ S16x512x512.size a
  inb_S16x8x512_S16x1x512_0_6_0 : ∀ a, (![0, 6, 0] : Fin 3 → Nat) a + S16x1x512.size a ≤ S16x8x512.size a
  inb_S16x512x512_S16x64x512_0_448_0 : ∀ a, (![0, 448, 0] : Fin 3 → Nat) a + S16x64x512.size a ≤ S16x512x512.size a
  inb_S16x8x512_S16x1x512_0_7_0 : ∀ a, (![0, 7, 0] : Fin 3 → Nat) a + S16x1x512.size a ≤ S16x8x512.size a
  inb_S16x8x512_S16x8x512_0_0_0 : ∀ a, (![0, 0, 0] : Fin 3 → Nat) a + S16x8x512.size a ≤ S16x8x512.size a
  h_S16x8x512 : 0 < S16x8x512.numel
  transposes_S16x8x512_p0_2_1_S16x512x8 : S16x8x512.Transposes [0, 2, 1] S16x512x8
  shapeCasts_S16x512x8_S16x8x64x8 : S16x512x8.ShapeCasts S16x8x64x8
  reduces_S16x8x64x8_S16x8x8 : S16x8x64x8.Reduces [2] S16x8x8
  transposes_S16x8x8_p0_2_1_S16x8x8 : S16x8x8.Transposes [0, 2, 1] S16x8x8
  shapeCasts_S16x8x8_S16x64 : S16x8x8.ShapeCasts S16x64
  inb_S16x64_S16x64_0_0 : ∀ a, (![0, 0] : Fin 2 → Nat) a + S16x64.size a ≤ S16x64.size a
  h_S16x64 : 0 < S16x64.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S16x512x512.size a ≤ S128x512x512.size a
  hwx0_0 : ∀ i : grid0.Coords, EltTy.bits .f32 = 32 ∨ (Rect.block (s := S128x512x512) S16x512x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S16x64.size a ≤ S128x64.size a
  hwx0_1 : ∀ i : grid0.Coords, EltTy.bits .f32 = 32 ∨ (Rect.block (s := S128x64) S16x64.size (cc0_transform_1 i) (hinb0_1 i)).WholeWords (EltTy.packing .f32)

variable [Facts₀]

abbrev win0_0 : Pipeline.Window sig grid0 :=
  Pipeline.Window.ofSpec (Memref.whole main_arg0) S16x512x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S16x64.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S128x512x512 : Shape := ⟨3, ![128, 512, 512]⟩
abbrev S128x8x64x8x64 : Shape := ⟨5, ![128, 8, 64, 8, 64]⟩
abbrev S_ : Shape := ⟨0, ![]⟩
abbrev S128x8x8 : Shape := ⟨3, ![128, 8, 8]⟩
abbrev S128x64 : Shape := ⟨2, ![128, 64]⟩

abbrev nBuf : Space → Nat
  | .hbm => 5
  | .vmem => 0
  | .smem => 0
  | _ => 0

abbrev bufTy : (tb : Table) → Fin (tcTables nBuf tb) → BufTy
  | .hbm, ⟨0, _⟩ => ⟨S128x512x512, .f32⟩
  | .hbm, ⟨1, _⟩ => ⟨S128x8x64x8x64, .f32⟩
  | .hbm, ⟨2, _⟩ => ⟨S_, .f32⟩
  | .hbm, ⟨3, _⟩ => ⟨S128x8x8, .f32⟩
  | .hbm, ⟨4, _⟩ => ⟨S128x64, .f32⟩
  | _, _ => ⟨S128x512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]

class Facts₀ : Prop where
  shapeCasts_S128x512x512_S128x8x64x8x64 : S128x512x512.ShapeCasts S128x8x64x8x64
  reducesTo_S128x8x64x8x64_S128x8x8_d2_4 : S128x8x64x8x64.ReducesTo [2, 4] S128x8x8
  h_S_ : 0 < S_.numel
  shapeCasts_S128x8x8_S128x64 : S128x8x8.ShapeCasts S128x64

variable [Facts₀]

class Facts : Prop extends Facts₀ where

variable [Facts]
-- ==== Proof.LibMinFold.lean ====
/-
  A minimum taken from a starting value over a finite family, on the extended reals.

  `minOver a f` is the least of `a` and the values `f p`.  It is determined by its lower bounds:
  `c ≤ minOver a f` exactly when `c ≤ a` and `c ≤ f p` for every `p`.  Two consequences carry every
  proof below.  The value depends only on the SET of values `f` takes, not on how the family is indexed
  or how often a value repeats (`minOver_eq_of_values`); and a minimum of minima, each started from the
  same `a`, is the minimum over the pairs (`minOver_minOver`) — `min` is commutative, associative and
  idempotent, so a starting value met several times counts once.  No finiteness of the entries is used:
  the laws hold at `+∞` and `-∞` as well.

  A reduction by `minimum` along some axes — the vector unit's `multi_reduction <minimumf>`, or the
  host's `reduce` with a `minimum` body — folds `min` from its starting value over the source entries
  whose kept coordinates are the result's.  `multiReduction_min_eq_minOver` and
  `hostReduce_min_eq_minOver` read such a reduction at a result index as `minOver` over ANY family `f`
  that lists exactly those source entries.
-/
import Idealize.ShloMosaic.PureOps.Ideal
import Idealize.ShloMosaic.PureOps.Ideal.Laws
import Idealize.ShloMosaic.PureOps.Reduce

noncomputable section

namespace Cert.MinFold

open Idealize.ShloMosaic

variable {ι κ : Type} [Fintype ι] [Fintype κ]

/-- The least of `a` and the values `f p`, `p` ranging over a finite type. -/
def minOver (a : EReal) (f : ι → EReal) : EReal := (Finset.univ : Finset ι).fold min a f

/-- Its lower bounds: those of `a` that are lower bounds of every `f p`. -/
theorem le_minOver_iff (a : EReal) (f : ι → EReal) (c : EReal) : c ≤ minOver a f ↔ c ≤ a ∧ ∀ p, c ≤ f p := by
  unfold minOver
  rw [Finset.le_fold_min]
  exact and_congr_right fun _ => ⟨fun h p => h p (Finset.mem_univ p), fun h p _ => h p⟩

/-- A value with those lower bounds is the minimum. -/
theorem eq_minOver_of_le_iff {v a : EReal} {f : ι → EReal} (h : ∀ c, c ≤ v ↔ c ≤ a ∧ ∀ p, c ≤ f p) :
    v = minOver a f :=
  eq_of_forall_le_iff fun c => (h c).trans (le_minOver_iff a f c).symm

/-- A fold of `min` from `a` over the members of a finite set that satisfy `P` is `minOver a f`, for any
    family `f` taking exactly the values `x` takes on those members. -/
theorem fold_min_filter_eq_minOver {α : Type} [Fintype α] (P : α → Prop) [DecidablePred P] (a : EReal)
    (x : α → EReal) (f : ι → EReal) (h1 : ∀ p, ∃ i, P i ∧ x i = f p) (h2 : ∀ i, P i → ∃ p, f p = x i) :
    (Finset.univ.filter P).fold min a x = minOver a f := by
  refine eq_minOver_of_le_iff fun c => ?_
  rw [Finset.le_fold_min]
  refine and_congr_right fun _ => ⟨fun h p => ?_, fun h i hi => ?_⟩
  · obtain ⟨i, hi, e⟩ := h1 p
    exact e ▸ h i (Finset.mem_filter.mpr ⟨Finset.mem_univ i, hi⟩)
  · obtain ⟨p, e⟩ := h2 i (Finset.mem_filter.mp hi).2
    exact e ▸ h p

/-- The minimum depends only on the values taken. -/
theorem minOver_eq_of_values (a : EReal) (f : ι → EReal) (g : κ → EReal) (h1 : ∀ q, ∃ p, f p = g q)
    (h2 : ∀ p, ∃ q, g q = f p) : minOver a f = minOver a g := by
  refine eq_minOver_of_le_iff fun c => ?_
  rw [le_minOver_iff]
  refine and_congr_right fun _ => ⟨fun h q => ?_, fun h p => ?_⟩
  · obtain ⟨p, e⟩ := h1 q; exact e ▸ h p
  · obtain ⟨q, e⟩ := h2 p; exact e ▸ h q

/-- Pointwise equal families have equal minima. -/
theorem minOver_congr (a : EReal) {f g : ι → EReal} (h : ∀ p, f p = g p) : minOver a f = minOver a g :=
  congrArg (minOver a) (funext h)

/-- A minimum over `k` of minima over `r`, all started from `a`, is the minimum over the pairs `(r, k)`. -/
theorem minOver_minOver (a : EReal) (g : ι → κ → EReal) :
    minOver a (fun k => minOver a fun r => g r k) = minOver a fun p : ι × κ => g p.1 p.2 := by
  refine eq_minOver_of_le_iff fun c => ?_
  rw [le_minOver_iff]
  simp only [le_minOver_iff]
  exact ⟨fun ⟨ha, h⟩ => ⟨ha, fun p => (h p.2).2 p.1⟩, fun ⟨ha, h⟩ => ⟨ha, fun k => ⟨ha, fun r => h (r, k)⟩⟩⟩

/-- The vector unit's reduction by minimum, at a result index `j`, on the extended reals: the least of
    its starting value and the source entries whose kept coordinates are `j`, listed by any family `f`. -/
theorem multiReduction_min_eq_minOver {s t : Shape} {φ : FTy} {axes : List (Fin s.rank)} (src : FVec Ideal s φ)
    (acc : BitVec φ.bits) (h : s.Reduces axes t) (hφ : FKind.Formats φ) (hacc : acc = FKind.minimumf.neutral φ hφ)
    (j : t.Idx) (f : ι → EReal) (h1 : ∀ p, ∃ i, h.drop i = j ∧ src i = f p)
    (h2 : ∀ i, h.drop i = j → ∃ p, f p = src i) :
    multiReduction .minimumf axes t src acc h hφ hacc j = minOver (Ideal.ofBits φ acc) f := by
  rw [multiReduction_minimumf_eq_fold]
  exact fold_min_filter_eq_minOver (fun i => h.drop i = j) _ src f h1 h2

/-- The host's one-operand reduction with a `minimum` body, likewise, from its starting value's one entry. -/
theorem hostReduce_min_eq_minOver {s t u : Shape} {φ : FTy} {axes : List (Fin s.rank)} (x : FVec Ideal s φ)
    (init : FVec Ideal u φ) (h : s.ReducesTo axes t) (hu : 0 < u.numel) (j : t.Idx) (f : ι → EReal)
    (h1 : ∀ p, ∃ i, h.drop i = j ∧ x i = f p) (h2 : ∀ i, h.drop i = j → ∃ p, f p = x i) :
    Host.reduce (FloatOps.minimumf (F := Ideal) (φ := φ)) x init h hu j = minOver (init (Shape.Idx.first hu)) f := by
  rw [Host.reduce_eq_fold]
  exact fold_min_filter_eq_minOver (fun i => h.drop i = j) _ x f h1 h2

end Cert.MinFold

end
-- ==== Proof.KernelPay.lean ====
/-
  What the kernel body computes, read at an index, on the extended reals.

  The body works on a block of 16 matrices.  It first takes, for each of the eight bands of 64 rows, the
  minimum down each column of the band (`bandMin_apply`: entry `(b, col)` is the least of the starting
  value and the band's 64 entries in that column), and stores the eight results as the rows of a
  [16, 8, 512] table.  It then reads the table back, and for output column `q = 8·i + j` takes the minimum
  of row `i` of the table over the 64 columns `64·j + k` (`colMin_apply`): the transposes and reshapes
  around the second reduction only say which 64 table entries meet.
-/
import proofs.«151284_j63333587746929_2_alg».proof.Proof.Gen.KernelIdeal.Skeleton
import proofs.«151284_j63333587746929_2_alg».proof.Proof.LibMinFold
import Idealize.ShloMosaic.Lib.ValueIdx
import Idealize.ShloMosaic.Lib.ValueLayout
import Idealize.ShloMosaic.Lib.Pipeline.Value

noncomputable section

namespace Cert.KernelIdeal.Pay

open Cert.KernelIdeal Cert.KernelIdeal.Gen Idealize.ShloMosaic Idealize.ShloMosaic.ValueIdx Cert.MinFold

/-- The value every reduction of the body starts from. -/
abbrev start : EReal := Ideal.ofBits .f32 0x7F800000#32

/-- The minimum along the 64 rows of a band, at column `col` of matrix `b`. -/
theorem bandReduce_apply (v : FVec Ideal S16x64x512 .f32) (b : Fin 16) (col : Fin 512) :
    multiReduction (F := Ideal) .minimumf [1] S16x512 v 0x7F800000#32 reduces_S16x64x512_S16x512 (.inl rfl) rfl (ix2 b col)
      = minOver start fun r : Fin 64 => v (ix3 b r col) := by
  refine multiReduction_min_eq_minOver v _ _ _ _ _ _ (fun r => ⟨ix3 b r col, ?_, rfl⟩) (fun i hi => ⟨i 1, ?_⟩)
  · funext a; match a with | ⟨0, _⟩ => rfl | ⟨1, _⟩ => rfl
  · have h0 := congrArg Fin.val (congrFun hi 0)
    have h1 := congrArg Fin.val (congrFun hi 1)
    refine congrArg v (funext fun a => Fin.ext ?_)
    match a with
    | ⟨0, _⟩ => exact h0.symm
    | ⟨1, _⟩ => rfl
    | ⟨2, _⟩ => exact h1.symm

/-- A band's payload: the band minimum, laid out as one row `[16, 1, 512]` of the table. -/
theorem bandMin_apply (v : Vec Ideal S16x64x512 .f32) (b : Fin 16) (u : Fin 1) (col : Fin 512) :
    k0_pay1 (F := Ideal) v (ix3 b u col) = minOver start fun r : Fin 64 => v (ix3 b r col) := by
  unfold k0_pay1
  refine (shapeCast_apply _ shapeCasts_S16x512_S16x1x512 (ix3 b u col) (ix2 b col) ?_).trans (bandReduce_apply v b col)
  rw [Shape.rowMajor_val_two, Shape.rowMajor_val_three]
  show b.val * 512 + col.val = (b.val * 1 + u.val) * 512 + col.val
  have := u.isLt; omega

/-- The eight bands' payloads are one function of the band. -/
theorem pay2_eq (v : Vec Ideal S16x64x512 .f32) : k0_pay2 (F := Ideal) v = k0_pay1 v := rfl
theorem pay3_eq (v : Vec Ideal S16x64x512 .f32) : k0_pay3 (F := Ideal) v = k0_pay1 v := rfl
theorem pay4_eq (v : Vec Ideal S16x64x512 .f32) : k0_pay4 (F := Ideal) v = k0_pay1 v := rfl
theorem pay65_eq (v : Vec Ideal S16x64x512 .f32) : k0_pay6 (F := Ideal) (k0_pay5 v) = k0_pay1 v := rfl
theorem pay7_eq (v : Vec Ideal S16x64x512 .f32) : k0_pay7 (F := Ideal) v = k0_pay1 v := rfl
theorem pay8_eq (v : Vec Ideal S16x64x512 .f32) : k0_pay8 (F := Ideal) v = k0_pay1 v := rfl
theorem pay9_eq (v : Vec Ideal S16x64x512 .f32) : k0_pay9 (F := Ideal) v = k0_pay1 v := rfl

/-- The second reduction: output column `q = 8·i + j` of matrix `b` is the least of the starting value and
    the 64 entries `(b, i, 64·j + k)` of the table. -/
theorem colMin_apply (w : Vec Ideal S16x8x512 .f32) (b : Fin 16) (i j : Fin 8) (q : Fin 64) (hq : q.val = 8 * i.val + j.val) :
    k0_pay10 (F := Ideal) w (ix2 b q)
      = minOver start fun k : Fin 64 => w (ix3 b i ⟨64 * j.val + k.val, by have := j.isLt; have := k.isLt; omega⟩) := by
  unfold k0_pay10
  refine (shapeCast_apply _ shapeCasts_S16x8x8_S16x64 (ix2 b q) (ix3 b i j) ?_).trans ?_
  · rw [Shape.rowMajor_val_three, Shape.rowMajor_val_two]
    show (b.val * 8 + i.val) * 8 + j.val = b.val * 64 + q.val
    omega
  refine (transpose_ix3_021_apply _ transposes_S16x8x8_p0_2_1_S16x8x8 b i j).trans ?_
  refine (multiReduction_min_eq_minOver _ _ reduces_S16x8x64x8_S16x8x8 _ _ (ix3 b j i)
    (fun k : Fin 64 => shapeCast S16x8x64x8 (transpose S16x512x8 [0, 2, 1] w transposes_S16x8x512_p0_2_1_S16x512x8)
      shapeCasts_S16x512x8_S16x8x64x8 (ix4 b j k i))
    (fun k => ⟨ix4 b j k i, ?_, rfl⟩) (fun i' hi => ⟨i' 2, ?_⟩)).trans ?_
  · funext a; match a with | ⟨0, _⟩ => rfl | ⟨1, _⟩ => rfl | ⟨2, _⟩ => rfl
  · have h0 := congrArg Fin.val (congrFun hi 0)
    have h1 := congrArg Fin.val (congrFun hi 1)
    have h2 := congrArg Fin.val (congrFun hi 2)
    refine congrArg _ (funext fun a => Fin.ext ?_)
    match a with
    | ⟨0, _⟩ => exact h0.symm
    | ⟨1, _⟩ => exact h1.symm
    | ⟨2, _⟩ => rfl
    | ⟨3, _⟩ => exact h2.symm
  refine minOver_congr _ fun k => ?_
  refine (shapeCast_apply _ shapeCasts_S16x512x8_S16x8x64x8 (ix4 b j k i)
    (ix3 b ⟨64 * j.val + k.val, by have := j.isLt; have := k.isLt; omega⟩ i) ?_).trans ?_
  · rw [Shape.rowMajor_val_three, Shape.rowMajor_val_four]
    show (b.val * 512 + (64 * j.val + k.val)) * 8 + i.val = ((b.val * 8 + j.val) * 64 + k.val) * 8 + i.val
    omega
  exact transpose_ix3_021_apply w transposes_S16x8x512_p0_2_1_S16x512x8 b _ i

end Cert.KernelIdeal.Pay

end
-- ==== Proof.KernelBody.lean ====
/-
  What the kernel body leaves in its output block, as one function of its input block.

  The run of the body finds, for the [16, 8, 512] table, eight stores — band `g`'s column minima into row
  `g` — and then one store of the whole output block, computed from the table read back whole.  The eight
  rows tile the table, so the table read back is, entry by entry, the band minimum (`table_eq`); the
  output block is then the minimum over 64 table columns of minima over 64 rows: the minimum over the
  64×64 tile (`out_eq`).
-/
import proofs.«151284_j63333587746929_2_alg».proof.Proof.Gen.KernelIdeal.Frame
import proofs.«151284_j63333587746929_2_alg».proof.Proof.KernelPay
import Idealize.ShloMosaic.Lib.Pipeline.Value
import Idealize.ShloMosaic.Lib.Tactic

set_option maxRecDepth 16384

noncomputable section

namespace Cert.KernelIdeal.Body

open Cert.KernelIdeal Cert.KernelIdeal.Gen Cert.KernelIdeal.Pay Cert.MinFold
open Idealize.ShloMosaic Idealize.ShloMosaic.TcCoe Idealize.ShloMosaic.ValueIdx Idealize.SL.Sem

theorem hz2 : (![0, 0] : Fin 2 → Nat) = fun _ => 0 := funext fun a => by fin_cases a <;> rfl
theorem hz3 : (![0, 0, 0] : Fin 3 → Nat) = fun _ => 0 := funext fun a => by fin_cases a <;> rfl

/-- Entry `(b, g, col)` of the table: the least of the starting value and the 64 entries of column `col` in
    band `g` (rows `64·g + r`) of matrix `b` of the block. -/
def tableAt (x : Vec Ideal S16x512x512 .f32) (b : Fin 16) (g : Fin 8) (col : Fin 512) : EReal :=
  minOver start fun r : Fin 64 =>
    x (ix3 b ⟨64 * g.val + r.val, by have := g.isLt; have := r.isLt; omega⟩ col)

def table (x : Vec Ideal S16x512x512 .f32) : S16x8x512.Idx → EReal := fun y => tableAt x (y 0) (y 1) (y 2)

/-- One band's store: its payload, at a local index, is the table at the index's place in row `g`. -/
theorem band_piece (g o : Nat) (hg : g < 8) (ho : o = 64 * g)
    (inbS : ∀ a, (![0, g, 0] : Fin 3 → Nat) a + S16x1x512.size a ≤ S16x8x512.size a)
    (inbL : ∀ a, (![0, o, 0] : Fin 3 → Nat) a + S16x64x512.size a ≤ S16x512x512.size a)
    (a1 : Memref sig .tc .vmem S16x512x512 .f32) (h1 : a1.IsWhole) (x : Vec Ideal S16x512x512 .f32) (x' : S16x1x512.Idx) :
    k0_pay1 (F := Ideal) (View.readAt (Elt Ideal) a1.view (Rect.unit (s := S16x512x512) ![0, o, 0] S16x64x512.size inbL).toLoadRect (h1.unread x)) x'
      = table x ((Rect.unit (s := S16x8x512) ![0, g, 0] S16x1x512.size inbS).emb x') := by
  subst ho
  obtain ⟨b, u, col, rfl⟩ : ∃ (b : Fin 16) (u : Fin 1) (col : Fin 512), x' = ix3 b u col := ⟨x' 0, x' 1, x' 2, eq_ix3 x'⟩
  rw [bandMin_apply, View.readAt_eq_ld, h1.read_unread]
  unfold table tableAt
  refine minOver_congr _ fun r => congrArg x (funext fun a => Fin.ext ?_)
  have hu := u.isLt
  match a with
  | ⟨0, _⟩ => rfl
  | ⟨1, _⟩ => show 64 * g + 1 * r.val = 64 * (g + 1 * u.val) + r.val; omega
  | ⟨2, _⟩ => rfl

/-- Row `g` of the table lies under band `g`'s store. -/
theorem mem_band (g : Nat) (hg : g < 8)
    (inbS : ∀ a, (![0, g, 0] : Fin 3 → Nat) a + S16x1x512.size a ≤ S16x8x512.size a) (b : Fin 16) (col : Fin 512) :
    (ix3 b ⟨g, hg⟩ col : S16x8x512.Idx) ∈ (Rect.unit (s := S16x8x512) ![0, g, 0] S16x1x512.size inbS).set :=
  Rect.mem_set_unit.mpr fun a => match a with
    | ⟨0, _⟩ => ⟨Nat.zero_le _, by show b.val < 0 + 16; omega⟩
    | ⟨1, _⟩ => ⟨Nat.le_refl _, by show g < g + 1; omega⟩
    | ⟨2, _⟩ => ⟨Nat.zero_le _, by show col.val < 0 + 512; omega⟩

/-- A whole-buffer load after stores reads what the stores left. -/
theorem readCov_whole {sig : RefSig} {κ : Kind} {sp : Space} {S : Shape} {e : EltTy} (v : View sig κ sp S e)
    (L : List (View.Piece (Elt Ideal) S e)) {off : Fin S.rank → Nat} (h : off = fun _ => 0)
    (inb : ∀ a, off a + S.size a ≤ S.size a) :
    v.readCov L (Rect.unit off S.size inb).toLoadRect = View.canon L := by
  rw [View.readCov_eq_canon']
  exact View.ld_unit_zero h inb (View.canon L)

/-- The least entry of tile `(q / 8, q % 8)` of matrix `b` of a block of 16 matrices (and the starting value). -/
def blockMinAt (x : Vec Ideal S16x512x512 .f32) (b : Fin 16) (q : Fin 64) : EReal :=
  minOver start fun p : Fin 64 × Fin 64 =>
    x (ix3 b ⟨64 * (q.val / 8) + p.1.val, by have := q.isLt; have := p.1.isLt; omega⟩
      ⟨64 * (q.val % 8) + p.2.val, by have := p.2.isLt; omega⟩)

def blockMin (x : Vec Ideal S16x512x512 .f32) : S16x64.Idx → EReal := fun y => blockMinAt x (y 0) (y 1)

/-- THE BODY'S VALUE: the output block, entry `(b, q)` with `q = 8·i + j`, is the least of the starting value
    and the 64×64 entries of tile `(i, j)` of matrix `b` of the input block. -/
theorem out_eq (c : Dev nD) (i : grid0.Coords) (a1 : Memref sig .tc .vmem S16x512x512 .f32) (h1 : a1.IsWhole)
    (a2 : Memref sig .tc .vmem S16x64 .f32) (h2 : a2.IsWhole) (a3 : Memref sig .tc .vmem S16x8x512 .f32) (h3 : a3.IsWhole)
    (x : Vec Ideal S16x512x512 .f32) :
    out0_A_1 (F := Ideal) c i a1 h1 a2 h2 a3 h3 x = blockMin x := by
  unfold out0_A_1
  rw [View.read_writes_eq_canon _ _ _ (cover0_A_1 c i a1 h1 a2 h2 a3 h3 x)]
  unfold kernelRun0_A
  dsimp only
  sl_unfold_words
  rw [View.canon_unit_zero hz2, readCov_whole _ _ hz3]
  simp only [pay2_eq, pay3_eq, pay4_eq, pay65_eq, pay7_eq, pay8_eq, pay9_eq]
  -- the eight band stores leave the table
  have htab : ∀ L : List (View.Piece (Elt Ideal) S16x8x512 .f32),
      (∀ p ∈ L, ∀ x' : p.1.shape.Idx, p.2 x' = table x (p.1.emb x')) → (∀ y, ∃ p ∈ L, y ∈ p.1.set) →
      View.canon L = table x :=
    fun L hL hy => funext fun y => View.canon_apply_of_pieces (table x) L hL y (hy y)
  refine (congrArg (k0_pay10 (F := Ideal)) (htab _ ?_ ?_)).trans ?_
  · intro p hp
    simp only [List.mem_cons, List.not_mem_nil, or_false] at hp
    have e0 : 0 = 64 * 0 := by norm_num
    have e1 : 64 = 64 * 1 := by norm_num
    have e2 : 128 = 64 * 2 := by norm_num
    have e3 : 192 = 64 * 3 := by norm_num
    have e4 : 256 = 64 * 4 := by norm_num
    have e5 : 320 = 64 * 5 := by norm_num
    have e6 : 384 = 64 * 6 := by norm_num
    have e7 : 448 = 64 * 7 := by norm_num
    have g0 : 0 < 8 := by omega
    have g1 : 1 < 8 := by omega
    have g2 : 2 < 8 := by omega
    have g3 : 3 < 8 := by omega
    have g4 : 4 < 8 := by omega
    have g5 : 5 < 8 := by omega
    have g6 : 6 < 8 := by omega
    have g7 : 7 < 8 := by omega
    rcases hp with rfl | rfl | rfl | rfl | rfl | rfl | rfl | rfl <;> intro x' <;> dsimp only
    · exact band_piece 7 448 g7 e7 inb_S16x8x512_S16x1x512_0_7_0 inb_S16x512x512_S16x64x512_0_448_0 a1 h1 x x'
    · exact band_piece 6 384 g6 e6 inb_S16x8x512_S16x1x512_0_6_0 inb_S16x512x512_S16x64x512_0_384_0 a1 h1 x x'
    · exact band_piece 5 320 g5 e5 inb_S16x8x512_S16x1x512_0_5_0 inb_S16x512x512_S16x64x512_0_320_0 a1 h1 x x'
    · exact band_piece 4 256 g4 e4 inb_S16x8x512_S16x1x512_0_4_0 inb_S16x512x512_S16x64x512_0_256_0 a1 h1 x x'
    · exact band_piece 3 192 g3 e3 inb_S16x8x512_S16x1x512_0_3_0 inb_S16x512x512_S16x64x512_0_192_0 a1 h1 x x'
    · exact band_piece 2 128 g2 e2 inb_S16x8x512_S16x1x512_0_2_0 inb_S16x512x512_S16x64x512_0_128_0 a1 h1 x x'
    · exact band_piece 1 64 g1 e1 inb_S16x8x512_S16x1x512_0_1_0 inb_S16x512x512_S16x64x512_0_64_0 a1 h1 x x'
    · exact band_piece 0 0 g0 e0 inb_S16x8x512_S16x1x512_0_0_0 inb_S16x512x512_S16x64x512_0_0_0 a1 h1 x x'
  · intro y
    obtain ⟨b, g, col, rfl⟩ : ∃ (b : Fin 16) (g : Fin 8) (col : Fin 512), y = ix3 b g col := ⟨y 0, y 1, y 2, eq_ix3 y⟩
    obtain ⟨g, hg⟩ := g
    interval_cases g
    · exact ⟨_, List.mem_cons_of_mem _ (List.mem_cons_of_mem _ (List.mem_cons_of_mem _ (List.mem_cons_of_mem _
        (List.mem_cons_of_mem _ (List.mem_cons_of_mem _ (List.mem_cons_of_mem _ List.mem_cons_self)))))),
        mem_band 0 hg inb_S16x8x512_S16x1x512_0_0_0 b col⟩
    · exact ⟨_, List.mem_cons_of_mem _ (List.mem_cons_of_mem _ (List.mem_cons_of_mem _ (List.mem_cons_of_mem _
        (List.mem_cons_of_mem _ (List.mem_cons_of_mem _ List.mem_cons_self))))), mem_band 1 hg inb_S16x8x512_S16x1x512_0_1_0 b col⟩
    · exact ⟨_, List.mem_cons_of_mem _ (List.mem_cons_of_mem _ (List.mem_cons_of_mem _ (List.mem_cons_of_mem _
        (List.mem_cons_of_mem _ List.mem_cons_self)))), mem_band 2 hg inb_S16x8x512_S16x1x512_0_2_0 b col⟩
    · exact ⟨_, List.mem_cons_of_mem _ (List.mem_cons_of_mem _ (List.mem_cons_of_mem _ (List.mem_cons_of_mem _
        List.mem_cons_self))), mem_band 3 hg inb_S16x8x512_S16x1x512_0_3_0 b col⟩
    · exact ⟨_, List.mem_cons_of_mem _ (List.mem_cons_of_mem _ (List.mem_cons_of_mem _ List.mem_cons_self)),
        mem_band 4 hg inb_S16x8x512_S16x1x512_0_4_0 b col⟩
    · exact ⟨_, List.mem_cons_of_mem _ (List.mem_cons_of_mem _ List.mem_cons_self), mem_band 5 hg inb_S16x8x512_S16x1x512_0_5_0 b col⟩
    · exact ⟨_, List.mem_cons_of_mem _ List.mem_cons_self, mem_band 6 hg inb_S16x8x512_S16x1x512_0_6_0 b col⟩
    · exact ⟨_, List.mem_cons_self, mem_band 7 hg inb_S16x8x512_S16x1x512_0_7_0 b col⟩
  -- and the second reduction takes, per tile, the minimum over its columns of the column minima
  funext y
  obtain ⟨b, q, rfl⟩ : ∃ (b : Fin 16) (q : Fin 64), y = ix2 b q := ⟨y 0, y 1, eq_ix2 y⟩
  have hq := q.isLt
  rw [colMin_apply (table x) b ⟨q.val / 8, by omega⟩ ⟨q.val % 8, by omega⟩ q (by show q.val = 8 * (q.val / 8) + q.val % 8; omega)]
  exact minOver_minOver start fun (r k : Fin 64) =>
    x (ix3 b ⟨64 * (q.val / 8) + r.val, by have := r.isLt; omega⟩ ⟨64 * (q.val % 8) + k.val, by have := k.isLt; omega⟩)

end Cert.KernelIdeal.Body

end
-- ==== Proof.TileMin.lean ====
/-
  The specification: 8×8 min-pooling of a stack of 128 matrices of 512×512 entries.

  Each matrix is cut into an 8×8 grid of 64×64 tiles; entry `8·i + j` of output row `b` is the least
  entry of tile `(i, j)` of matrix `b` — the entries `X[b, 64·i + r, 64·j + k]`, `r, k < 64` — and of the
  starting value `a` every reduction is begun from.  `a` is kept as a parameter: both programs begin
  from the same value, and no law used needs to know which.
-/
import proofs.«151284_j63333587746929_2_alg».proof.Proof.LibMinFold
import Idealize.ShloMosaic.Lib.ValueIdx

noncomputable section

namespace Cert.TileMin

open Idealize.ShloMosaic Idealize.ShloMosaic.ValueIdx Cert.MinFold

/-- Where entry `(r, k)` of the tile read by output column `q = 8·i + j` sits in matrix `b`:
    row `64·(q / 8) + r`, column `64·(q % 8) + k`. -/
def src (b : Fin 128) (q : Fin 64) (p : Fin 64 × Fin 64) : (⟨3, ![128, 512, 512]⟩ : Shape).Idx :=
  ix3 b ⟨64 * (q.val / 8) + p.1.val, by have := q.isLt; have := p.1.isLt; omega⟩
    ⟨64 * (q.val % 8) + p.2.val, by have := p.2.isLt; omega⟩

/-- The pooled value at `(b, q)`: the least of `a` and the tile's entries. -/
def pooledAt (a : EReal) (X : (⟨3, ![128, 512, 512]⟩ : Shape).Idx → EReal) (b : Fin 128) (q : Fin 64) : EReal :=
  minOver a fun p : Fin 64 × Fin 64 => X (src b q p)

/-- The pooled array, `[128, 64]`. -/
def pooled (a : EReal) (X : (⟨3, ![128, 512, 512]⟩ : Shape).Idx → EReal) : (⟨2, ![128, 64]⟩ : Shape).Idx → EReal :=
  fun y => pooledAt a X (y 0) (y 1)

theorem pooled_apply (a : EReal) (X : (⟨3, ![128, 512, 512]⟩ : Shape).Idx → EReal) (b : Fin 128) (q : Fin 64) :
    pooled a X (ix2 b q) = pooledAt a X b q := rfl

end Cert.TileMin

end
-- ==== Proof.KernelValue.lean ====
/-
  The kernel's result array is the pooled array.

  The grid has eight points; point `t` is handed matrices `16·t … 16·t + 15` as its input block and
  writes rows `16·t … 16·t + 15` of the [128, 64] result.  The body's value on a block (`Body.out_eq`) is the
  tile minimum of that block's matrices; matrix `b` of block `t` is matrix `16·t + b` of the array, so what
  point `t` writes back is rows `16·t …` of the pooled array (`flushed_eq`).  The eight row blocks cover the
  result (`cover`), so the result array ends as the pooled array (`final`, `run`).
-/
import proofs.«151284_j63333587746929_2_alg».proof.Proof.Gen.KernelIdeal.Value
import proofs.«151284_j63333587746929_2_alg».proof.Proof.KernelBody
import proofs.«151284_j63333587746929_2_alg».proof.Proof.TileMin
import Idealize.ShloMosaic.Lib.Pipeline.Value

set_option maxRecDepth 16384

noncomputable section

namespace Cert.KernelIdeal.Pooled

open Cert.KernelIdeal Cert.KernelIdeal.Gen Cert.KernelIdeal.Pay Cert.KernelIdeal.Body Cert.MinFold Cert.TileMin
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg)

/-- The index maps over the grid: the input block and the output block move together along the batch axis and
    stay at block 0 on the others; there are eight of them. -/
theorem idx_facts : ∀ t : Fin cfg0.N, win0_0.index t (0 : Fin 3) = win0_1.index t (0 : Fin 2)
    ∧ win0_0.index t (1 : Fin 3) = 0 ∧ win0_0.index t (2 : Fin 3) = 0
    ∧ win0_1.index t (1 : Fin 2) = 0 ∧ win0_1.index t (0 : Fin 2) ≤ 7 :=
  (by decide +kernel : ∀ t : Fin grid0.N, _)

/-- Every row block of the result is some point's. -/
theorem idx_onto : ∀ q0 : Fin 8, ∃ t : Fin cfg0.N, win0_1.index t = ![q0.val, 0] :=
  (by decide +kernel : ∀ q0 : Fin 8, ∃ t : Fin grid0.N, win0_1.index t = ![q0.val, 0])

/-- WHAT POINT `t` WRITES BACK is its block of the pooled array of the argument. -/
theorem flushed_eq (c : Dev nD) (t : Fin cfg0.N) :
    (dats m 0 c).flushed 1 t
      = ((cfg0.win 1).blk t).view.read (Elt Ideal) (pooled start (V m c main_arg0)) := by
  rw [Cert.KernelIdeal.Value.flushed1_A,
    out_eq c (grid0.coords t) (ms0_0 t) (hs0_0 t) (ms0_1 t) (hs0_1 t) scM0_0 (Memref.isWhole_whole _) (iblk m c 0 t)]
  obtain ⟨e0, e1, e2, e3, e4⟩ := idx_facts t
  funext j
  obtain ⟨b, q, rfl⟩ : ∃ (b : Fin 16) (q : Fin 64), j = ix2 b q := ⟨j 0, j 1, eq_ix2 j⟩
  have hb := b.isLt
  have hq := q.isLt
  show blockMinAt (iblk m c 0 t) b q
    = pooledAt start (V m c main_arg0) (((cfg0.win 1).blk t).view.emb (ix2 b q) 0) (((cfg0.win 1).blk t).view.emb (ix2 b q) 1)
  unfold blockMinAt pooledAt
  refine minOver_congr _ fun p => ?_
  have hr := p.1.isLt
  have hk := p.2.isLt
  unfold iblk
  rw [View.read_apply]
  show V m c main_arg0 _ = V m c main_arg0 _
  refine congrArg (V m c main_arg0) (funext fun a => Fin.ext ?_)
  match a with
  | ⟨0, _⟩ =>
    show win0_0.index t (0 : Fin 3) * 16 + 1 * b.val = win0_1.index t (0 : Fin 2) * 16 + 1 * b.val
    omega
  | ⟨1, _⟩ =>
    show win0_0.index t (1 : Fin 3) * 512 + 1 * (64 * (q.val / 8) + p.1.val)
      = 64 * ((win0_1.index t (1 : Fin 2) * 64 + 1 * q.val) / 8) + p.1.val
    omega
  | ⟨2, _⟩ =>
    show win0_0.index t (2 : Fin 3) * 512 + 1 * (64 * (q.val % 8) + p.2.val)
      = 64 * ((win0_1.index t (1 : Fin 2) * 64 + 1 * q.val) % 8) + p.2.val
    omega

/-- An index of the result is in point `t`'s block iff each coordinate is in the block's range on its axis. -/
theorem mem_blk (t : Fin cfg0.N) (i : S128x64.Idx) :
    i ∈ ((cfg0.win 1).blk t).view.set ↔ ∀ a : Fin 2, win0_1.index t a * S16x64.size a ≤ (i a).val
      ∧ (i a).val < win0_1.index t a * S16x64.size a + S16x64.size a := by
  show i ∈ ((View.whole main_v0).slice (win0_1.rect t)).set ↔ _
  rw [View.set_slice_whole, Rect.mem_set_unit]
  exact Iff.rfl

/-- The eight row blocks cover the result: row `r` is in the block of the point whose block index is `r / 16`. -/
theorem cover (i : S128x64.Idx) :
    ∃ t : Fin cfg0.N, (cfg0.win 1).flush t = true ∧ i ∈ ((cfg0.win 1).blk t).view.set := by
  have hi0 : (i 0).val < 128 := (i 0).isLt
  have hi1 : (i 1).val < 64 := (i 1).isLt
  obtain ⟨t, ht⟩ := idx_onto ⟨(i 0).val / 16, by omega⟩
  have q0 : win0_1.index t (0 : Fin 2) = (i 0).val / 16 := congrFun ht 0
  have q1 : win0_1.index t (1 : Fin 2) = 0 := congrFun ht 1
  refine ⟨t, flush0_1 t, ?_⟩
  rw [mem_blk]
  intro a
  match a with
  | ⟨0, _⟩ =>
    show win0_1.index t (0 : Fin 2) * 16 ≤ (i 0).val ∧ (i 0).val < win0_1.index t (0 : Fin 2) * 16 + 16
    omega
  | ⟨1, _⟩ =>
    show win0_1.index t (1 : Fin 2) * 64 ≤ (i 1).val ∧ (i 1).val < win0_1.index t (1 : Fin 2) * 64 + 64
    omega

/-- THE RESULT ARRAY after the run is the pooled array of the argument. -/
theorem final (c : Dev nD) :
    (dats m 0 c).arrAt 1 cfg0.N = pooled start (m ((c : Thread nD τ).loc main_arg0)) :=
  (dats m 0 c).arrAt_eq_of_cover 1 (pooled start (V m c main_arg0)) (fun t _ => flushed_eq m c t) cover

/-- The run, read: the result at the pooled array of the argument, the argument unchanged. -/
theorem run : θ_run defs (onTc (τ := τ) (main (F := Ideal))) ⟨m, fun _ => 0, ρ⟩ fun r => ∀ c : Dev nD,
      r.2.mem ((c : Thread nD τ).loc main_v0) = pooled start (m ((c : Thread nD τ).loc main_arg0))
      ∧ r.2.mem ((c : Thread nD τ).loc main_arg0) = m ((c : Thread nD τ).loc main_arg0) :=
  (θ_run defs _ _).mono (fun r h c => ⟨(h c).1.trans (final m c), (h c).2⟩) (Cert.KernelIdeal.Value.run_blocks m ρ)

end Cert.KernelIdeal.Pooled

end
-- ==== Proof.RefValue.lean ====
/-
  The reference computes the specification.

  The reference views the [128, 512, 512] array as [128, 8, 64, 8, 64] — entry `(b, i, r, j, k)` is
  `X[b, 64·i + r, 64·j + k]` —, takes the minimum over the two axes of extent 64 from the starting
  value, and flattens `(i, j)` to `8·i + j`.  The entries met at `(b, 8·i + j)` are exactly those of tile
  `(i, j)` of matrix `b`.
-/
import proofs.«151284_j63333587746929_2_alg».proof.Proof.Gen.ReferenceIdeal.Read
import proofs.«151284_j63333587746929_2_alg».proof.Proof.TileMin
import Idealize.ShloMosaic.Lib.ValueIdx

noncomputable section

namespace Cert.ReferenceIdeal.RefValue

open Cert.ReferenceIdeal Cert.ReferenceIdeal.Gen Cert.ReferenceIdeal.Read Cert.MinFold Cert.TileMin
open Idealize.ShloMosaic Idealize.ShloMosaic.ValueIdx

/-- The value the reference's reduction starts from. -/
abbrev start : EReal := Ideal.ofBits .f32 0x7F800000#32

/-- The reference's result is the pooled array. -/
theorem result_eq (X : (⟨S128x512x512, .f32⟩ : BufTy).Contents (Elt Ideal)) :
    val_main_v2 (F := Ideal) X = pooled start X := by
  funext y
  obtain ⟨b, q, rfl⟩ : ∃ (b : Fin 128) (q : Fin 64), y = ix2 b q := ⟨y 0, y 1, eq_ix2 y⟩
  rw [val_main_v2_apply, pooled_apply]
  unfold val_main_v1 pooledAt
  have hb := b.isLt
  have hq := q.isLt
  refine hostReduce_min_eq_minOver (val_main_v0 (F := Ideal) X) (val_main_cst (F := Ideal))
    reducesTo_S128x8x64x8x64_S128x8x8_d2_4 h_S_ (idx_main_v2 (ix2 b q)) (fun p : Fin 64 × Fin 64 => X (src b q p))
    (fun p => ⟨ix5 b ⟨q.val / 8, by omega⟩ p.1 ⟨q.val % 8, by omega⟩ p.2, ?_, ?_⟩) (fun i hi => ⟨((i 2 : Fin 64), (i 4 : Fin 64)), ?_⟩)
  · -- the kept coordinates of (b, q / 8, r, q % 8, k) are (b, q / 8, q % 8): position 64·b + q read as [128, 8, 8]
    funext a
    apply Fin.ext
    match a with
    | ⟨0, _⟩ => show b.val = (b.val * 64 + q.val) / 64; omega
    | ⟨1, _⟩ => show q.val / 8 = (b.val * 64 + q.val) / 8 % 8; omega
    | ⟨2, _⟩ => show q.val % 8 = (b.val * 64 + q.val) % 8; omega
  · -- and the reshape reads it at (b, 64·(q / 8) + r, 64·(q % 8) + k)
    rw [val_main_v0_apply]
    refine congrArg X (funext fun a => Fin.ext ?_)
    have hr := p.1.isLt
    have hk := p.2.isLt
    match a with
    | ⟨0, _⟩ =>
      show ((((b.val * 8 + q.val / 8) * 64 + p.1.val) * 8 + q.val % 8) * 64 + p.2.val) / 262144 = b.val
      omega
    | ⟨1, _⟩ =>
      show ((((b.val * 8 + q.val / 8) * 64 + p.1.val) * 8 + q.val % 8) * 64 + p.2.val) / 512 % 512 = 64 * (q.val / 8) + p.1.val
      omega
    | ⟨2, _⟩ =>
      show ((((b.val * 8 + q.val / 8) * 64 + p.1.val) * 8 + q.val % 8) * 64 + p.2.val) % 512 = 64 * (q.val % 8) + p.2.val
      omega
  · -- conversely an entry whose kept coordinates are (b, q / 8, q % 8) is entry (r, k) of that tile
    have h0 : (i 0).val = (b.val * 64 + q.val) / 64 := congrArg Fin.val (congrFun hi 0)
    have h1 : (i 1).val = (b.val * 64 + q.val) / 8 % 8 := congrArg Fin.val (congrFun hi 1)
    have h3 : (i 3).val = (b.val * 64 + q.val) % 8 := congrArg Fin.val (congrFun hi 2)
    have h2 : (i 2).val < 64 := (i 2).isLt
    have h4 : (i 4).val < 64 := (i 4).isLt
    rw [val_main_v0_apply]
    refine congrArg X (funext fun a => Fin.ext ?_)
    match a with
    | ⟨0, _⟩ =>
      show b.val = (((((i 0).val * 8 + (i 1).val) * 64 + (i 2).val) * 8 + (i 3).val) * 64 + (i 4).val) / 262144
      omega
    | ⟨1, _⟩ =>
      show 64 * (q.val / 8) + (i 2).val = (((((i 0).val * 8 + (i 1).val) * 64 + (i 2).val) * 8 + (i 3).val) * 64 + (i 4).val) / 512 % 512
      omega
    | ⟨2, _⟩ =>
      show 64 * (q.val % 8) + (i 4).val = (((((i 0).val * 8 + (i 1).val) * 64 + (i 2).val) * 8 + (i 3).val) * 64 + (i 4).val) % 512
      omega

end Cert.ReferenceIdeal.RefValue

end
-- ==== Proof.lean ====
/-
  8×8 min-pooling of 128 matrices of 512×512 entries: the kernel against its reference, on the extended reals.

  Both programs send `X : [128, 512, 512]` to the array `[128, 64]` whose entry `(b, 8·i + j)` is the least entry of
  the 64×64 tile `(i, j)` of matrix `b` — the entries `X[b, 64·i + r, 64·j + k]` — taken together with the
  value `+∞` that every reduction starts from (Proof/TileMin.lean: `pooled`).

  * The reference reshapes to `[128, 8, 64, 8, 64]` and takes the minimum over the two axes of extent 64 at once
    (Proof/RefValue.lean).
  * The kernel works on blocks of 16 matrices.  For each of the eight bands of 64 rows it takes the minimum down
    every column, keeps the eight results as a `[16, 8, 512]` table, and then takes, for each of the eight groups
    of 64 columns, the minimum of the table's row over that group (Proof/KernelPay.lean, Proof/KernelBody.lean);
    eight grid points write the eight row blocks of the result (Proof/KernelValue.lean).

  The two agree because a minimum of minima, each begun from the same starting value, is the minimum over all the
  entries met: `min` is commutative, associative and idempotent (Proof/LibMinFold.lean, `minOver_minOver`).  The
  law holds for every extended real, infinite ones included, so the finiteness of the inputs is never used; and the
  starting value stays a symbol — the same word on both sides — so it is never evaluated.

  The three frames are the generated ones (the reference's is its generated run with the result dropped); the
  idealization rewrote nothing, so `preserves` is `True`.
-/
import proofs.«151284_j63333587746929_2_alg».proof.Defs
import proofs.«151284_j63333587746929_2_alg».proof.Proof.Gen.Kernel
import proofs.«151284_j63333587746929_2_alg».proof.Proof.Gen.Kernel.Skeleton
import proofs.«151284_j63333587746929_2_alg».proof.Proof.Gen.Kernel.Launch
import proofs.«151284_j63333587746929_2_alg».proof.Proof.Gen.Kernel.Points
import proofs.«151284_j63333587746929_2_alg».proof.Proof.Gen.Kernel.Frame
import proofs.«151284_j63333587746929_2_alg».proof.Proof.Gen.KernelIdeal
import proofs.«151284_j63333587746929_2_alg».proof.Proof.Gen.KernelIdeal.Skeleton
import proofs.«151284_j63333587746929_2_alg».proof.Proof.Gen.KernelIdeal.Launch
import proofs.«151284_j63333587746929_2_alg».proof.Proof.Gen.KernelIdeal.Points
import proofs.«151284_j63333587746929_2_alg».proof.Proof.Gen.KernelIdeal.Frame
import proofs.«151284_j63333587746929_2_alg».proof.Proof.Gen.ReferenceIdeal
import proofs.«151284_j63333587746929_2_alg».proof.Proof.Gen.KernelIdeal.Value
import proofs.«151284_j63333587746929_2_alg».proof.Proof.Gen.ReferenceIdeal.Run
import proofs.«151284_j63333587746929_2_alg».proof.Proof.Gen.ReferenceIdeal.Read
import proofs.«151284_j63333587746929_2_alg».proof.Proof.Gen.Pre_finite_inputs
import proofs.«151284_j63333587746929_2_alg».proof.Proof.KernelValue
import proofs.«151284_j63333587746929_2_alg».proof.Proof.RefValue
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- On the extended reals the kernel's result array ends at the pooled array of its argument, and the reference's at
    the pooled array of an argument that agrees with it. -/
theorem algebraic : Cert.algebraic_KernelIdeal_ReferenceIdeal := by
  intro m ρ m' ρ' _ hagree
  refine ⟨fun c => Cert.TileMin.pooled Cert.KernelIdeal.Pay.start
    (m ((c.tc : Thread Cert.KernelIdeal.nD Cert.KernelIdeal.τ).loc Cert.KernelIdeal.main_arg0)),
    Cert.KernelIdeal.Pooled.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v2_eq, Cert.ReferenceIdeal.RefValue.result_eq, hagree c]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
